-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x2048 : Shape := ⟨3, ![16, 3, 2048]⟩
abbrev S_ : Shape := ⟨0, ![]⟩

class Facts : Prop where
  bcast_S_S16x3x2048 : S_.BroadcastsInDim S16x3x2048 (![] : Fin 0 → Fin S16x3x2048.rank)
  reducesTo_S16x3x2048_S_d0_1_2 : S16x3x2048.ReducesTo [0, 1, 2] S_
  h_S_ : 0 < S_.numel

variable [Facts]

def fn {F : FTy → Type} [FloatOps F] (main_arg0 : FVec F S16x3x2048 .f32) (main_arg1 : FVec F S16x3x2048 .f32) : IVec S_ 1 :=
  let main_v0 : FVec F S16x3x2048 .f32 := Host.absf main_arg0
  let main_cst : FVec F S_ .f32 := constant S_ .f32 0x7F800000#32
  let main_v1 : FVec F S16x3x2048 .f32 := broadcastInDim S16x3x2048 ![] bcast_S_S16x3x2048 main_cst
  let main_v2 : IVec S16x3x2048 1 := cmpf .olt main_v0 main_v1
  let main_c : IVec S_ 1 := constantI S_ 1 1#1
  let main_v3 : IVec S_ 1 := (fun x v => Host.reduce IntOp.andi x v reducesTo_S16x3x2048_S_d0_1_2 h_S_) main_v2 main_c
  let main_v4 : FVec F S16x3x2048 .f32 := Host.absf main_arg1
  let main_cst_0 : FVec F S_ .f32 := constant S_ .f32 0x7F800000#32
  let main_v5 : FVec F S16x3x2048 .f32 := broadcastInDim S16x3x2048 ![] bcast_S_S16x3x2048 main_cst_0
  let main_v6 : IVec S16x3x2048 1 := cmpf .olt main_v4 main_v5
  let main_c_1 : IVec S_ 1 := constantI S_ 1 1#1
  let main_v7 : IVec S_ 1 := (fun x v => Host.reduce IntOp.andi x v reducesTo_S16x3x2048_S_d0_1_2 h_S_) main_v6 main_c_1
  let main_v8 : IVec S_ 1 := andi main_v3 main_v7
  main_v8
-- ==== Kernel.lean ====
abbrev S16x3x2048 : Shape := ⟨3, ![16, 3, 2048]⟩
abbrev S16x1x2048 : Shape := ⟨3, ![16, 1, 2048]⟩
abbrev S1x3x2048 : Shape := ⟨3, ![1, 3, 2048]⟩
abbrev S1x1x2048 : Shape := ⟨3, ![1, 1, 2048]⟩
abbrev S3x2048 : Shape := ⟨2, ![3, 2048]⟩
abbrev S2048 : Shape := ⟨1, ![2048]⟩
abbrev S2048x2048 : Shape := ⟨2, ![2048, 2048]⟩
abbrev S2048x1 : Shape := ⟨2, ![2048, 1]⟩
abbrev S1x2048 : Shape := ⟨2, ![1, 2048]⟩
abbrev S16x2048 : Shape := ⟨2, ![16, 2048]⟩
abbrev S_ : Shape := ⟨0, ![]⟩

abbrev nBuf : Space → Nat
  | .hbm => 15
  | .vmem => 8
  | .smem => 0
  | _ => 0

abbrev bufTy : (tb : Table) → Fin (tcTables nBuf tb) → BufTy
  | .hbm, ⟨0, _⟩ => ⟨S16x3x2048, .f32⟩
  | .hbm, ⟨1, _⟩ => ⟨S16x3x2048, .f32⟩
  | .hbm, ⟨2, _⟩ => ⟨S16x1x2048, .f32⟩
  | .hbm, ⟨3, _⟩ => ⟨S16x1x2048, .f32⟩
  | .hbm, ⟨4, _⟩ => ⟨S16x2048, .f32⟩
  | .hbm, ⟨5, _⟩ => ⟨S16x2048, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S1x3x2048, .f32⟩
  | .local _ .vmem, ⟨1, _⟩ => ⟨S1x3x2048, .f32⟩
  | .local _ .vmem, ⟨2, _⟩ => ⟨S1x3x2048, .f32⟩
  | .local _ .vmem, ⟨3, _⟩ => ⟨S1x3x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | _, _ => ⟨S16x3x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x3x2048_S1x3x2048_0_0_0 : ∀ a, (![0, 0, 0] : Fin 3 → Nat) a + S1x3x2048.size a ≤ S1x3x2048.size a
  h_S1x3x2048 : 0 < S1x3x2048.numel
  shapeCasts_S1x3x2048_S3x2048 : S1x3x2048.ShapeCasts S3x2048
  reduces_S3x2048_S2048 : S3x2048.Reduces [0] S2048
  shapeCasts_S2048_S2048x1 : S2048.ShapeCasts S2048x1
  shapeCasts_S2048_S1x2048 : S2048.ShapeCasts S1x2048
  broadcasts_S2048x1_S2048x2048 : S2048x1.Broadcasts S2048x2048
  broadcasts_S1x2048_S2048x2048 : S1x2048.Broadcasts S2048x2048
  reduces_S2048x2048_S2048 : S2048x2048.Reduces [0] S2048
  reduces_S2048x2048_S2048_2 : S2048x2048.Reduces [1] S2048
  shapeCasts_S2048_S1x1x2048 : S2048.ShapeCasts S1x1x2048
  inb_S1x1x2048_S1x1x2048_0_0_0 : ∀ a, (![0, 0, 0] : Fin 3 → Nat) a + S1x1x2048.size a ≤ S1x1x2048.size a
  h_S1x1x2048 : 0 < S1x1x2048.numel
  shapeCasts_S16x1x2048_S16x2048 : S16x1x2048.ShapeCasts S16x2048
  reducesTo_S16x2048_S_d0_1 : S16x2048.ReducesTo [0, 1] S_
  h_S_ : 0 < S_.numel
  dot_S3x2048_S3x2048_S2048x2048_0_0_1_1_n_n_wf : DotDims.WF S3x2048 S3x2048 S2048x2048 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x2048.size a ≤ S16x3x2048.size a
  hwx0_0 : ∀ i : grid0.Coords, EltTy.bits .f32 = 32 ∨ (Rect.block (s := S16x3x2048) S1x3x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x2048.size a ≤ S16x3x2048.size a
  hwx0_1 : ∀ i : grid0.Coords, EltTy.bits .f32 = 32 ∨ (Rect.block (s := S16x3x2048) S1x3x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S16x1x2048.size a
  hwx0_2 : ∀ i : grid0.Coords, EltTy.bits .f32 = 32 ∨ (Rect.block (s := S16x1x2048) S1x1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S16x1x2048.size a
  hwx0_3 : ∀ i : grid0.Coords, EltTy.bits .f32 = 32 ∨ (Rect.block (s := S16x1x2048) S1x1x2048.size (cc0_transform_3 i) (hinb0_3 i)).WholeWords (EltTy.packing .f32)

variable [Facts₀]

def dot_S3x2048_S3x2048_S2048x2048_0_0_1_1_n_n : DotDims S3x2048 S3x2048 S2048x2048 where
  lhsContracting := [0]
  rhsContracting := [0]
  lhsNonContracting := [1]
  rhsNonContracting := [1]
  lhsBatch := []
  rhsBatch := []
  wf := dot_S3x2048_S3x2048_S2048x2048_0_0_1_1_n_n_wf

abbrev win0_0 : Pipeline.Window sig grid0 :=
  Pipeline.Window.ofSpec (Memref.whole main_arg0) S1x3x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x3x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x2048.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x3x2048 : Shape := ⟨3, ![16, 3, 2048]⟩
abbrev S_ : Shape := ⟨0, ![]⟩
abbrev S16x2048 : Shape := ⟨2, ![16, 2048]⟩
abbrev S16x2048x2048 : Shape := ⟨3, ![16, 2048, 2048]⟩
abbrev S16x2048x1 : Shape := ⟨3, ![16, 2048, 1]⟩
abbrev S16x1x2048 : Shape := ⟨3, ![16, 1, 2048]⟩

abbrev nBuf : Space → Nat
  | .hbm => 35
  | .vmem => 0
  | .smem => 0
  | _ => 0

abbrev bufTy : (tb : Table) → Fin (tcTables nBuf tb) → BufTy
  | .hbm, ⟨0, _⟩ => ⟨S16x3x2048, .f32⟩
  | .hbm, ⟨1, _⟩ => ⟨S16x3x2048, .f32⟩
  | .hbm, ⟨2, _⟩ => ⟨S16x3x2048, .f32⟩
  | .hbm, ⟨3, _⟩ => ⟨S_, .f32⟩
  | .hbm, ⟨4, _⟩ => ⟨S16x2048, .f32⟩
  | .hbm, ⟨5, _⟩ => ⟨S16x3x2048, .f32⟩
  | .hbm, ⟨6, _⟩ => ⟨S_, .f32⟩
  | .hbm, ⟨7, _⟩ => ⟨S16x2048, .f32⟩
  | .hbm, ⟨8, _⟩ => ⟨S16x2048x2048, .f32⟩
  | .hbm, ⟨9, _⟩ => ⟨S16x2048x1, .f32⟩
  | .hbm, ⟨10, _⟩ => ⟨S16x1x2048, .f32⟩
  | .hbm, ⟨11, _⟩ => ⟨S16x2048x2048, .f32⟩
  | .hbm, ⟨12, _⟩ => ⟨S16x2048x2048, .f32⟩
  | .hbm, ⟨13, _⟩ => ⟨S16x2048x2048, .f32⟩
  | .hbm, ⟨14, _⟩ => ⟨S_, .f32⟩
  | .hbm, ⟨15, _⟩ => ⟨S16x2048x2048, .f32⟩
  | .hbm, ⟨16, _⟩ => ⟨S16x2048x2048, .f32⟩
  | .hbm, ⟨17, _⟩ => ⟨S16x2048x2048, .f32⟩
  | .hbm, ⟨18, _⟩ => ⟨S_, .f32⟩
  | .hbm, ⟨19, _⟩ => ⟨S16x2048x2048, .f32⟩
  | .hbm, ⟨20, _⟩ => ⟨S16x2048x2048, .f32⟩
  | .hbm, ⟨21, _⟩ => ⟨S16x2048x2048, .f32⟩
  | .hbm, ⟨22, _⟩ => ⟨S_, .f32⟩
  | .hbm, ⟨23, _⟩ => ⟨S16x2048, .f32⟩
  | .hbm, ⟨24, _⟩ => ⟨S_, .f32⟩
  | .hbm, ⟨25, _⟩ => ⟨S16x2048, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S16x3x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  reducesTo_S16x3x2048_S16x2048_d1 : S16x3x2048.ReducesTo [1] S16x2048
  h_S_ : 0 < S_.numel
  bcast_S16x2048_S16x2048x1_0_1 : S16x2048.BroadcastsInDim S16x2048x1 (![0, 1] : Fin 2 → Fin S16x2048x1.rank)
  bcast_S16x2048_S16x1x2048_0_2 : S16x2048.BroadcastsInDim S16x1x2048 (![0, 2] : Fin 2 → Fin S16x1x2048.rank)
  bcast_S16x2048x1_S16x2048x2048_0_1_2 : S16x2048x1.BroadcastsInDim S16x2048x2048 (![0, 1, 2] : Fin 3 → Fin S16x2048x2048.rank)
  bcast_S16x1x2048_S16x2048x2048_0_1_2 : S16x1x2048.BroadcastsInDim S16x2048x2048 (![0, 1, 2] : Fin 3 → Fin S16x2048x2048.rank)
  bcast_S_S16x2048x2048 : S_.BroadcastsInDim S16x2048x2048 (![] : Fin 0 → Fin S16x2048x2048.rank)
  reducesTo_S16x2048x2048_S16x2048_d1 : S16x2048x2048.ReducesTo [1] S16x2048
  reducesTo_S16x2048x2048_S16x2048_d2 : S16x2048x2048.ReducesTo [2] S16x2048
  reducesTo_S16x2048_S_d0_1 : S16x2048.ReducesTo [0, 1] S_
  dot_S16x3x2048_S16x3x2048_S16x2048x2048_1_1_2_2_0_0_wf : DotDims.WF S16x3x2048 S16x3x2048 S16x2048x2048 [1] [1] [2] [2] [0] [0]

variable [Facts₀]

def dot_S16x3x2048_S16x3x2048_S16x2048x2048_1_1_2_2_0_0 : DotDims S16x3x2048 S16x3x2048 S16x2048x2048 where
  lhsContracting := [1]
  rhsContracting := [1]
  lhsNonContracting := [2]
  rhsNonContracting := [2]
  lhsBatch := [0]
  rhsBatch := [0]
  wf := dot_S16x3x2048_S16x3x2048_S16x2048x2048_1_1_2_2_0_0_wf

class Facts : Prop extends Facts₀ where

variable [Facts]
-- ==== Proof.LibMinFold.lean ====
/-
  Minima over one axis at the ideal values, and monotone maps through them.

  * `fold_min_map`: a monotone map of the extended reals commutes with the fold of `min` over any finite set,
    the starting value mapped too: `min` of images is the image of `min` on a linear order.
  * `sqrt_mono`: the ideal square root — the real root on `[0, ∞)`, `⊤` at `⊤`, `⊥` below zero — is monotone on
    ALL extended reals, so clamping at any constant and then taking the root is monotone too (`clampRoot_mono`).
  * `multiReduction_minimumf_single`: a `vector.multi_reduction <minimumf>` over ONE axis, read at a result index, is
    the fold of `min` from the accumulator's value over that axis's coordinates (the `<maximumf>` law's twin).
  * `hostReduce_minimumf_single`: the host's one-operand `stablehlo.reduce` with a `minimum` body over one axis likewise.
  * `ofBits_inf_f32`: the f32 word `0x7F800000` is `⊤`.
-/
import Idealize.ShloMosaic.PureOps.Ideal
import Idealize.ShloMosaic.PureOps.Ideal.Laws
import Idealize.ShloMosaic.PureOps.Reduce

noncomputable section

namespace Cert.MinFold

open Idealize.ShloMosaic

/-- A monotone map commutes with a fold of `min`: the fold of the images from the image of the start is the image of
    the fold. No finiteness, no non-emptiness: on a linear order `f (min a b) = min (f a) (f b)`. -/
theorem fold_min_map {ι : Type*} (s : Finset ι) (f : EReal → EReal) (hf : Monotone f) (c : EReal) (g : ι → EReal) :
    s.fold min (f c) (fun i => f (g i)) = f (s.fold min c g) := by
  classical
  induction s using Finset.induction_on with
  | empty => rfl
  | insert a s ha ih => rw [Finset.fold_insert ha, Finset.fold_insert ha, ih, hf.map_min]

/-- The ideal square root is monotone on the whole extended line: below zero it is the bottom, on `[0, ∞)` the real
    root, at the top the top. -/
theorem sqrt_mono : Monotone Ideal.sqrt := by
  intro a b hab
  induction a using EReal.rec with
  | bot => exact bot_le
  | top =>
    have hb : b = ⊤ := top_le_iff.mp hab
    rw [hb]
  | coe r =>
    induction b using EReal.rec with
    | bot => exact absurd hab (by simp)
    | top => exact le_top
    | coe s =>
      have hrs : r ≤ s := EReal.coe_le_coe_iff.mp hab
      rw [Ideal.sqrt_coe, Ideal.sqrt_coe]
      by_cases hr : r < 0
      · rw [if_pos hr]; exact bot_le
      · have hs : ¬ s < 0 := fun h => hr (lt_of_le_of_lt hrs h)
        rw [if_neg hr, if_neg hs]
        exact EReal.coe_le_coe_iff.mpr (Real.sqrt_le_sqrt hrs)

/-- Clamp from below at a constant, then take the root. -/
def clampRoot (z v : EReal) : EReal := Ideal.sqrt (max v z)

theorem clampRoot_mono (z : EReal) : Monotone (clampRoot z) :=
  fun _ _ h => sqrt_mono (max_le_max h le_rfl)

/-- At the top it is the top, whatever the clamp. -/
theorem clampRoot_top (z : EReal) : clampRoot z ⊤ = ⊤ := by
  unfold clampRoot
  rw [max_eq_left le_top]
  rfl

/-- The minimum of the clamped roots is the clamped root of the minimum, the minima taken from `⊤`. -/
theorem fold_min_clampRoot {ι : Type*} (s : Finset ι) (z : EReal) (g : ι → EReal) :
    s.fold min ⊤ (fun i => clampRoot z (g i)) = clampRoot z (s.fold min ⊤ g) := by
  have h := fold_min_map s (clampRoot z) (clampRoot_mono z) ⊤ g
  rw [clampRoot_top] at h
  exact h

/-- The f32 word of `+∞`. -/
theorem ofBits_inf_f32 : Ideal.ofBits .f32 0x7F800000#32 = ⊤ := by simp [Ideal.ofBits, Ideal.ieee]

variable {φ : FTy}

/-- A float `vector.multi_reduction <minimumf>` over one axis, read at the ideal values: the fold of `min` from the
    accumulator's value over that axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The host's one-operand `stablehlo.reduce` with a `minimum` body over one axis, read at the ideal values: the
    fold of `min` from the initial value over that axis's coordinates. -/
theorem hostReduce_minimumf_single {s t u : Shape} {a : Fin s.rank} (x : FVec Ideal s φ) (init : FVec Ideal u φ)
    (h' : s.ReducesTo [a] t) (h : s.Reduces [a] t) (hu : 0 < u.numel) (j : t.Idx) :
    Host.reduce (FloatOps.minimumf (F := Ideal) (φ := φ)) x init h' hu j
      = (Finset.univ : Finset (Fin (s.size a))).fold min (init (Shape.Idx.first hu)) (x ∘ h.lift j) :=
  Host.reduce_eq_fold_single _ x init h' h hu j

end Cert.MinFold

end
-- ==== Proof.Spec.lean ====
/-
  The two nearest-neighbour distance arrays of sixteen pairs of point clouds, as functions of the clouds.

  A cloud array holds, for each of 16 pairs `b`, 2048 points `n` with 3 coordinates `k`, coordinate-major:
  entry `(b, k, n)`. For points `n` of the first cloud and `m` of the second,

      sqDist x y b n m = (∑ₖ x(b,k,n)² + ∑ₖ y(b,k,m)²) − 2 · ∑ₖ x(b,k,n) · y(b,k,m),

  the squared distance in its expanded form, on the extended reals. The distance from `m` to the first cloud is the
  root of the minimum over `n`, clamped at zero; from `n` to the second cloud, the same with the minimum over `m`.
  Clamp-then-root is monotone, so taking it before the minimum (point pair by point pair) or after it (once per
  point) gives one number: `nearFirst_eq`, `nearSecond_eq`.
-/
import proofs.«103376_j26259430047858_2_alg».proof.Proof.LibMinFold
import Idealize.ShloMosaic.Lib.ValueIdx

noncomputable section

open scoped BigOperators

namespace Cert.Chamfer

open Idealize.ShloMosaic Idealize.ShloMosaic.ValueIdx Cert.MinFold

/-- Sixteen clouds of 2048 points of 3 coordinates, coordinate-major. -/
abbrev Clouds : Type := (⟨3, ![16, 3, 2048]⟩ : Shape).Idx → EReal

/-- The f32 words of `2`, `0` and `+∞`, read at the ideal values; only `+∞`'s value is ever used. -/
abbrev two : EReal := Ideal.ofBits .f32 0x40000000#32
abbrev zero : EReal := Ideal.ofBits .f32 0x00000000#32
abbrev inf : EReal := Ideal.ofBits .f32 0x7F800000#32

/-- The expanded squared distance between point `n` of `x`'s cloud `b` and point `m` of `y`'s. -/
def sqDist (x y : Clouds) (b : Fin 16) (n m : Fin 2048) : EReal :=
  ((∑ k : Fin 3, x (ix3 b k n) * x (ix3 b k n)) + ∑ k : Fin 3, y (ix3 b k m) * y (ix3 b k m))
    - two * ∑ k : Fin 3, x (ix3 b k n) * y (ix3 b k m)

/-- The distance from point `m` of the second cloud to the first cloud: minimum first, clamp and root after. -/
def nearFirst (x y : Clouds) (b : Fin 16) (m : Fin 2048) : EReal :=
  clampRoot zero ((Finset.univ : Finset (Fin 2048)).fold min inf fun n => sqDist x y b n m)

/-- The distance from point `n` of the first cloud to the second cloud. -/
def nearSecond (x y : Clouds) (b : Fin 16) (n : Fin 2048) : EReal :=
  clampRoot zero ((Finset.univ : Finset (Fin 2048)).fold min inf fun m => sqDist x y b n m)

/-- Clamp and root pair by pair, minimum after: the same distance. -/
theorem nearFirst_eq (x y : Clouds) (b : Fin 16) (m : Fin 2048) :
    (Finset.univ : Finset (Fin 2048)).fold min inf (fun n => clampRoot zero (sqDist x y b n m)) = nearFirst x y b m := by
  unfold nearFirst inf
  rw [ofBits_inf_f32]
  exact fold_min_clampRoot _ _ _

theorem nearSecond_eq (x y : Clouds) (b : Fin 16) (n : Fin 2048) :
    (Finset.univ : Finset (Fin 2048)).fold min inf (fun m => clampRoot zero (sqDist x y b n m)) = nearSecond x y b n := by
  unfold nearSecond inf
  rw [ofBits_inf_f32]
  exact fold_min_clampRoot _ _ _

end Cert.Chamfer

end
-- ==== Proof.Body.lean ====
/-
  The kernel body's arithmetic, read at an index.

  One grid point holds one pair of clouds as two [1, 3, 2048] blocks `x0`, `x1`. The body forms the 2048 × 2048 matrix
  of expanded squared distances — row sums of squares down a column, column sums of squares along a row, minus twice
  the matrix product contracted over the three coordinates — and stores, for each point of one cloud, the clamped root
  of the minimum over the other cloud's points: down the columns for the first output, along the rows for the second.
  Read at entry `(n, m)` the matrix is `sqDist` of the blocks (`dist_apply`); read at entry `(0, 0, m)` the stored
  vectors are the clamped roots of folds of `min` over it (`toFirst_apply`, `toSecond_apply`).
-/
import proofs.«103376_j26259430047858_2_alg».proof.Proof.Gen.KernelIdeal.Skeleton
import proofs.«103376_j26259430047858_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Idealize.ShloMosaic Idealize.ShloMosaic.ValueIdx Cert.KernelIdeal Cert.KernelIdeal.Gen Cert.MinFold Cert.Chamfer

/-! ## Layout: a vector as a column, a column across the rows, a vector as a [1, 1, n] block -/

/-- A [2048] vector cast to a [2048, 1] column reads, at `(n, u)`, the vector at `n`. -/
theorem col_cast (v : FVec Ideal S2048 .f32) (h : S2048.ShapeCasts S2048x1) (n : Fin 2048) (u : Fin 1) :
    shapeCast S2048x1 v h (ix2 n u) = v (ix1 n) :=
  shapeCast_apply v h _ _ (by
    have hu : u.val = 0 := by omega
    rw [Shape.rowMajor_val_one, Shape.rowMajor_val_two]
    show n.val = n.val * 1 + u.val
    omega)

/-- A [2048, 1] column broadcast to [2048, 2048] reads, at `(n, m)`, the column at `n`. -/
theorem col_bcast (v : FVec Ideal S2048x1 .f32) (h : S2048x1.Broadcasts S2048x2048) (n m : Fin 2048) :
    broadcastTo S2048x2048 v h (ix2 n m) = v (ix2 n (0 : Fin 1)) := by
  refine broadcastTo_apply v h (ix2 n m) (ix2 n (0 : Fin 1)) fun ax => ?_
  match ax with
  | ⟨0, _⟩ =>
    show n.val = if (2048 : Nat) = 1 then 0 else n.val
    rw [if_neg (by decide)]
  | ⟨1, _⟩ => rfl

/-- A [2048] vector cast to a [1, 1, 2048] block reads, at `(u, w, m)`, the vector at `m`. -/
theorem blk_cast (v : FVec Ideal S2048 .f32) (h : S2048.ShapeCasts S1x1x2048) (u w : Fin 1) (m : Fin 2048) :
    shapeCast S1x1x2048 v h (ix3 u w m) = v (ix1 m) :=
  shapeCast_apply v h _ _ (by
    have hu : u.val = 0 := by omega
    have hw : w.val = 0 := by omega
    rw [Shape.rowMajor_val_one, Shape.rowMajor_val_three]
    show m.val = (u.val * 1 + w.val) * 2048 + m.val
    omega)

/-! ## The sums over the three coordinates -/

/-- The sum of squares down a column of a block: `∑ₖ x(0,k,n)²`. -/
theorem sumsq (x : Vec Ideal S1x3x2048 .f32) (hc : S1x3x2048.ShapeCasts S3x2048) (hr : S3x2048.Reduces [0] S2048)
    (hφ : FKind.Formats .f32) (hacc : (0x00000000#32 : BitVec FTy.f32.bits) = FKind.add.neutral .f32 hφ) (n : Fin 2048) :
    multiReduction (F := Ideal) .add [0] S2048 (mulf (shapeCast S3x2048 x hc) (shapeCast S3x2048 x hc)) 0x00000000#32 hr hφ hacc (ix1 n)
      = ∑ k : Fin 3, x (ix3 (0 : Fin 1) k n) * x (ix3 (0 : Fin 1) k n) := by
  refine (Ideal.multiReduction_add_single _ _ hr hφ hacc (ix1 n)).trans ?_
  show ∑ k : Fin 3, shapeCast S3x2048 x hc (hr.lift (ix1 n) k) * shapeCast S3x2048 x hc (hr.lift (ix1 n) k) = _
  refine Finset.sum_congr rfl fun k _ => ?_
  have e : hr.lift (ix1 n) k = ix2 k n :=
    funext fun a => Fin.ext (by match a with | ⟨0, _⟩ => rfl | ⟨1, _⟩ => rfl)
  rw [e, shapeCast_1ab_ab_apply]

theorem lhs_row (i : S2048x2048.Idx) (q : dot_S3x2048_S3x2048_S2048x2048_0_0_1_1_n_n.contr.Idx) :
    (dot_S3x2048_S3x2048_S2048x2048_0_0_1_1_n_n.lhsIdx i q 0).val = (q ⟨0, by decide⟩).val :=
  dot_S3x2048_S3x2048_S2048x2048_0_0_1_1_n_n.lhsIdx_val_of_single rfl i q
theorem lhs_col (i : S2048x2048.Idx) (q : dot_S3x2048_S3x2048_S2048x2048_0_0_1_1_n_n.contr.Idx) :
    (dot_S3x2048_S3x2048_S2048x2048_0_0_1_1_n_n.lhsIdx i q 1).val = (i 0).val := by
  unfold DotDims.lhsIdx
  rw [dif_neg (show ¬(1 : Fin S3x2048.rank) ∈ dot_S3x2048_S3x2048_S2048x2048_0_0_1_1_n_n.lhsBatch by decide), dif_pos (show (1 : Fin S3x2048.rank) ∈ dot_S3x2048_S3x2048_S2048x2048_0_0_1_1_n_n.lhsNonContracting by decide)]
  rfl
theorem rhs_row (i : S2048x2048.Idx) (q : dot_S3x2048_S3x2048_S2048x2048_0_0_1_1_n_n.contr.Idx) :
    (dot_S3x2048_S3x2048_S2048x2048_0_0_1_1_n_n.rhsIdx i q 0).val = (q ⟨0, by decide⟩).val :=
  dot_S3x2048_S3x2048_S2048x2048_0_0_1_1_n_n.rhsIdx_val_of_single rfl i q
theorem rhs_col (i : S2048x2048.Idx) (q : dot_S3x2048_S3x2048_S2048x2048_0_0_1_1_n_n.contr.Idx) :
    (dot_S3x2048_S3x2048_S2048x2048_0_0_1_1_n_n.rhsIdx i q 1).val = (i 1).val := by
  unfold DotDims.rhsIdx
  rw [dif_neg (show ¬(1 : Fin S3x2048.rank) ∈ dot_S3x2048_S3x2048_S2048x2048_0_0_1_1_n_n.rhsBatch by decide), dif_pos (show (1 : Fin S3x2048.rank) ∈ dot_S3x2048_S3x2048_S2048x2048_0_0_1_1_n_n.rhsNonContracting by decide)]
  rfl

/-- The matrix product contracted over the coordinates, into a zero accumulator: `∑ₖ x(k,n) · y(k,m)`. -/
theorem cross (x y : FVec Ideal S3x2048 .f32) (n m : Fin 2048) :
    matmul dot_S3x2048_S3x2048_S2048x2048_0_0_1_1_n_n none x y (constant S2048x2048 .f32 0x00000000#32) (ix2 n m)
      = ∑ k : Fin 3, x (ix2 k n) * y (ix2 k m) := by
  show FloatOps.matmul dot_S3x2048_S3x2048_S2048x2048_0_0_1_1_n_n none x y (constant S2048x2048 .f32 0x00000000#32) (ix2 n m) = _
  rw [Ideal.matmul_constant_zero_apply, ← Equiv.sum_comp (contrEquiv1 dot_S3x2048_S3x2048_S2048x2048_0_0_1_1_n_n 3 rfl rfl).symm]
  refine Finset.sum_congr rfl fun k _ => ?_
  have hk := contrEquiv1_symm_val dot_S3x2048_S3x2048_S2048x2048_0_0_1_1_n_n 3 rfl rfl k
  have el : dot_S3x2048_S3x2048_S2048x2048_0_0_1_1_n_n.lhsIdx (ix2 n m) ((contrEquiv1 dot_S3x2048_S3x2048_S2048x2048_0_0_1_1_n_n 3 rfl rfl).symm k) = ix2 k n := funext fun a => Fin.ext (by
    match a with
    | ⟨0, _⟩ => exact (lhs_row _ _).trans hk
    | ⟨1, _⟩ => exact lhs_col _ _)
  have er : dot_S3x2048_S3x2048_S2048x2048_0_0_1_1_n_n.rhsIdx (ix2 n m) ((contrEquiv1 dot_S3x2048_S3x2048_S2048x2048_0_0_1_1_n_n 3 rfl rfl).symm k) = ix2 k m := funext fun a => Fin.ext (by
    match a with
    | ⟨0, _⟩ => exact (rhs_row _ _).trans hk
    | ⟨1, _⟩ => exact rhs_col _ _)
  rw [el, er]

/-! ## The matrix of squared distances, and the two stored vectors -/

/-- The body's matrix at `(n, m)`, over the blocks' own entries. -/
theorem dist_block (x0 x1 : Vec Ideal S1x3x2048 .f32) (n m : Fin 2048) :
    k0_pay1 (F := Ideal) x0 x1 (ix2 n m)
      = ((∑ k : Fin 3, x0 (ix3 (0 : Fin 1) k n) * x0 (ix3 (0 : Fin 1) k n)) + ∑ k : Fin 3, x1 (ix3 (0 : Fin 1) k m) * x1 (ix3 (0 : Fin 1) k m))
        - two * ∑ k : Fin 3, x0 (ix3 (0 : Fin 1) k n) * x1 (ix3 (0 : Fin 1) k m) := by
  unfold k0_pay1
  refine congrArg₂ (· - ·) (congrArg₂ (· + ·) ?_ ?_) (congrArg (two * ·) ?_)
  · exact (col_bcast _ _ n m).trans ((col_cast _ _ n 0).trans (sumsq x0 _ _ _ _ n))
  · exact (broadcastTo_1b_ab_apply _ _ n m).trans ((shapeCast_a_1a_apply _ _ 0 m).trans (sumsq x1 _ _ _ _ m))
  · refine (cross _ _ n m).trans (Finset.sum_congr rfl fun k _ => ?_)
    rw [shapeCast_1ab_ab_apply, shapeCast_1ab_ab_apply]

/-- When the two blocks are the clouds of pair `b`, the matrix is `sqDist`. -/
theorem dist_apply (x0 x1 : Vec Ideal S1x3x2048 .f32) (X Y : Clouds) (b : Fin 16)
    (hx : ∀ (k : Fin 3) (n : Fin 2048), x0 (ix3 (0 : Fin 1) k n) = X (ix3 b k n))
    (hy : ∀ (k : Fin 3) (n : Fin 2048), x1 (ix3 (0 : Fin 1) k n) = Y (ix3 b k n)) (n m : Fin 2048) :
    k0_pay1 (F := Ideal) x0 x1 (ix2 n m) = sqDist X Y b n m := by
  rw [dist_block]
  unfold sqDist
  simp only [hx, hy]

/-- Clamp at the zero word, then root, read at an index. -/
theorem clamp_root_at (v : FVec Ideal S2048 .f32) (i : S2048.Idx) :
    sqrt (maximumf v (broadcast S2048 (Scalar.ofBits (F := Ideal) .f32 0x00000000#32))) i = clampRoot zero (v i) := rfl

/-- The first stored vector at `(0, 0, m)`: the clamped root of the minimum down column `m`. -/
theorem toFirst_block (x0 x1 : Vec Ideal S1x3x2048 .f32) (m : Fin 2048) :
    k0_pay2 (F := Ideal) x0 x1 (ix3 (0 : Fin 1) (0 : Fin 1) m)
      = clampRoot zero ((Finset.univ : Finset (Fin 2048)).fold min inf fun n => k0_pay1 (F := Ideal) x0 x1 (ix2 n m)) := by
  unfold k0_pay2
  refine (blk_cast _ _ 0 0 m).trans ?_
  refine (clamp_root_at _ (ix1 m)).trans ?_
  refine congrArg (clampRoot zero) ?_
  refine (multiReduction_minimumf_single _ _ reduces_S2048x2048_S2048 _ _ (ix1 m)).trans ?_
  refine Finset.fold_congr fun n _ => ?_
  exact congrArg (k0_pay1 (F := Ideal) x0 x1)
    (funext fun a => Fin.ext (by match a with | ⟨0, _⟩ => rfl | ⟨1, _⟩ => rfl))

/-- The second stored vector at `(0, 0, n)`: the clamped root of the minimum along row `n`. -/
theorem toSecond_block (x0 x1 : Vec Ideal S1x3x2048 .f32) (n : Fin 2048) :
    k0_pay3 (F := Ideal) x0 x1 (ix3 (0 : Fin 1) (0 : Fin 1) n)
      = clampRoot zero ((Finset.univ : Finset (Fin 2048)).fold min inf fun m => k0_pay1 (F := Ideal) x0 x1 (ix2 n m)) := by
  unfold k0_pay3
  refine (blk_cast _ _ 0 0 n).trans ?_
  refine (clamp_root_at _ (ix1 n)).trans ?_
  refine congrArg (clampRoot zero) ?_
  refine (multiReduction_minimumf_single _ _ reduces_S2048x2048_S2048_2 _ _ (ix1 n)).trans ?_
  refine Finset.fold_congr fun m _ => ?_
  exact congrArg (k0_pay1 (F := Ideal) x0 x1)
    (funext fun a => Fin.ext (by match a with | ⟨0, _⟩ => rfl | ⟨1, _⟩ => rfl))

/-- The stored vectors of the clouds of pair `b` are that pair's two distance vectors. -/
theorem toFirst_apply (x0 x1 : Vec Ideal S1x3x2048 .f32) (X Y : Clouds) (b : Fin 16)
    (hx : ∀ (k : Fin 3) (n : Fin 2048), x0 (ix3 (0 : Fin 1) k n) = X (ix3 b k n))
    (hy : ∀ (k : Fin 3) (n : Fin 2048), x1 (ix3 (0 : Fin 1) k n) = Y (ix3 b k n)) (m : Fin 2048) :
    k0_pay2 (F := Ideal) x0 x1 (ix3 (0 : Fin 1) (0 : Fin 1) m) = nearFirst X Y b m := by
  rw [toFirst_block]
  unfold nearFirst
  simp only [dist_apply x0 x1 X Y b hx hy]

theorem toSecond_apply (x0 x1 : Vec Ideal S1x3x2048 .f32) (X Y : Clouds) (b : Fin 16)
    (hx : ∀ (k : Fin 3) (n : Fin 2048), x0 (ix3 (0 : Fin 1) k n) = X (ix3 b k n))
    (hy : ∀ (k : Fin 3) (n : Fin 2048), x1 (ix3 (0 : Fin 1) k n) = Y (ix3 b k n)) (n : Fin 2048) :
    k0_pay3 (F := Ideal) x0 x1 (ix3 (0 : Fin 1) (0 : Fin 1) n) = nearSecond X Y b n := by
  rw [toSecond_block]
  unfold nearSecond
  simp only [dist_apply x0 x1 X Y b hx hy]

end Cert.KernelIdeal.Body

end
-- ==== Proof.Arrays.lean ====
/-
  From the blocks the grid points write back to the two output arrays.

  The grid has one point per pair of clouds: point `t` reads block `(t, ·, ·)` of each argument array and writes block
  `(t, 0, ·)` of each output array. A block's entry `(u, k, n)` is the array's entry `(t + u, k, n)`, so the body's two
  stored vectors at point `t` are the distance vectors of pair `t` (`flushed2_eq`, `flushed3_eq`); the sixteen blocks
  `(t, 0, ·)` tile a [16, 1, 2048] array (`cover2`, `cover3`); hence each output array ends as one function of the
  argument arrays: `firstArr`, `secondArr`.
-/
import proofs.«103376_j26259430047858_2_alg».proof.Proof.Gen.KernelIdeal.Frame
import proofs.«103376_j26259430047858_2_alg».proof.Proof.Body
import Idealize.ShloMosaic.Lib.Pipeline.Value
import Idealize.ShloMosaic.Lib.ValueIdx

noncomputable section

namespace Cert.KernelIdeal.Arrays

open Idealize.ShloMosaic Idealize.ShloMosaic.TcCoe Idealize.ShloMosaic.ValueIdx Idealize.SL.Sem
open Cert.KernelIdeal Cert.KernelIdeal.Gen Cert.KernelIdeal.Body Cert.Chamfer

variable (m : (ℓ : Loc nD τ sig) → Buf (Elt Ideal) ℓ)

/-- The first output array: entry `(b, 0, q)` is the distance from point `q` of the second cloud of pair `b` to the
    first cloud. -/
def firstArr (X Y : Clouds) : S16x1x2048.Idx → EReal := fun i => nearFirst X Y (i 0) (i 2)
/-- The second output array: entry `(b, 0, q)` is the distance from point `q` of the first cloud to the second. -/
def secondArr (X Y : Clouds) : S16x1x2048.Idx → EReal := fun i => nearSecond X Y (i 0) (i 2)

theorem hz : (![0, 0, 0] : Fin 3 → Nat) = fun _ => 0 := funext fun a => by fin_cases a <;> rfl

/-- The four index maps, decided over the sixteen points: every window's block index at point `t` is `(t, 0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- Entry `(0, k, n)` of the first argument's block at point `t` is the array's entry `(t, k, n)`. -/
theorem blk0 (c : Dev nD) (t : Fin cfg0.N) (b : Fin 16) (hb : b.val = t.val) (k : Fin 3) (n : Fin 2048) :
    iblk m c 0 t (ix3 (0 : Fin 1) k n) = V m c main_arg0 (ix3 b k n) := by
  obtain ⟨e00, e01, e02, -⟩ := idx_facts t
  show V m c main_arg0 (((cfg0.win 0).blk t).view.emb (ix3 (0 : Fin 1) k n)) = V m c main_arg0 (ix3 b k n)
  refine congrArg (V m c main_arg0) (funext fun a => Fin.ext ?_)
  match a with
  | ⟨0, _⟩ =>
    show win0_0.index t (0 : Fin 3) * 1 + 1 * 0 = b.val
    omega
  | ⟨1, _⟩ =>
    show win0_0.index t (1 : Fin 3) * 3 + 1 * k.val = k.val
    omega
  | ⟨2, _⟩ =>
    show win0_0.index t (2 : Fin 3) * 2048 + 1 * n.val = n.val
    omega

/-- The same for the second argument. -/
theorem blk1 (c : Dev nD) (t : Fin cfg0.N) (b : Fin 16) (hb : b.val = t.val) (k : Fin 3) (n : Fin 2048) :
    iblk m c 1 t (ix3 (0 : Fin 1) k n) = V m c main_arg1 (ix3 b k n) := by
  obtain ⟨-, -, -, e10, e11, e12, -⟩ := idx_facts t
  show V m c main_arg1 (((cfg0.win 1).blk t).view.emb (ix3 (0 : Fin 1) k n)) = V m c main_arg1 (ix3 b k n)
  refine congrArg (V m c main_arg1) (funext fun a => Fin.ext ?_)
  match a with
  | ⟨0, _⟩ =>
    show win0_1.index t (0 : Fin 3) * 1 + 1 * 0 = b.val
    omega
  | ⟨1, _⟩ =>
    show win0_1.index t (1 : Fin 3) * 3 + 1 * k.val = k.val
    omega
  | ⟨2, _⟩ =>
    show win0_1.index t (2 : Fin 3) * 2048 + 1 * n.val = n.val
    omega

/-- The first stored vector at any entry of its [1, 1, 2048] block. -/
theorem first_at (x0 x1 : Vec Ideal S1x3x2048 .f32) (X Y : Clouds) (b : Fin 16)
    (hx : ∀ (k : Fin 3) (n : Fin 2048), x0 (ix3 (0 : Fin 1) k n) = X (ix3 b k n))
    (hy : ∀ (k : Fin 3) (n : Fin 2048), x1 (ix3 (0 : Fin 1) k n) = Y (ix3 b k n)) (y : S1x1x2048.Idx) :
    k0_pay2 (F := Ideal) x0 x1 y = nearFirst X Y b (y 2) := by
  obtain ⟨u, w, q, rfl⟩ : ∃ (u w : Fin 1) (q : Fin 2048), y = ix3 u w q := ⟨y 0, y 1, y 2, eq_ix3 y⟩
  obtain rfl : u = 0 := Subsingleton.elim _ _
  obtain rfl : w = 0 := Subsingleton.elim _ _
  exact toFirst_apply x0 x1 X Y b hx hy q

/-- The second stored vector likewise. -/
theorem second_at (x0 x1 : Vec Ideal S1x3x2048 .f32) (X Y : Clouds) (b : Fin 16)
    (hx : ∀ (k : Fin 3) (n : Fin 2048), x0 (ix3 (0 : Fin 1) k n) = X (ix3 b k n))
    (hy : ∀ (k : Fin 3) (n : Fin 2048), x1 (ix3 (0 : Fin 1) k n) = Y (ix3 b k n)) (y : S1x1x2048.Idx) :
    k0_pay3 (F := Ideal) x0 x1 y = nearSecond X Y b (y 2) := by
  obtain ⟨u, w, q, rfl⟩ : ∃ (u w : Fin 1) (q : Fin 2048), y = ix3 u w q := ⟨y 0, y 1, y 2, eq_ix3 y⟩
  obtain rfl : u = 0 := Subsingleton.elim _ _
  obtain rfl : w = 0 := Subsingleton.elim _ _
  exact toSecond_apply x0 x1 X Y b hx hy q

/-- Output window 2: what point `t` writes back is block `t` of `firstArr` of the argument arrays. -/
theorem flushed2_eq (c : Dev nD) (t : Fin cfg0.N) :
    (dats m 0 c).flushed 2 t = ((cfg0.win 2).blk t).view.read (Elt Ideal) (firstArr (V m c main_arg0) (V m c main_arg1)) := by
  show (cfg0.win 2).cut (grid0.coords t) ((dats m 0 c).after 2 t) = _
  rw [after0_2]
  unfold out0_2
  rw [View.canon_unit_zero hz]
  simp only [View.ld_unit_zero (S := S1x3x2048) hz]
  have hN : grid0.N = 16 := N_0
  have ht : t.val < 16 := by have h : t.val < grid0.N := t.isLt; omega
  obtain ⟨-, -, -, -, -, -, e20, e21, e22, e30, e31, e32⟩ := idx_facts t
  funext j
  have hj0 : (j 0).val < 1 := (j 0).isLt
  show k0_pay2 (F := Ideal) (iblk m c 0 t) (iblk m c 1 t) j
    = firstArr (V m c main_arg0) (V m c main_arg1) (((cfg0.win 2).blk t).view.emb j)
  refine (first_at (iblk m c 0 t) (iblk m c 1 t) (V m c main_arg0) (V m c main_arg1) ⟨t.val, ht⟩
    (blk0 m c t ⟨t.val, ht⟩ rfl) (blk1 m c t ⟨t.val, ht⟩ rfl) j).trans ?_
  unfold firstArr
  refine congrArg₂ (nearFirst (V m c main_arg0) (V m c main_arg1)) (Fin.ext ?_) (Fin.ext ?_)
  · show t.val = win0_2.index t (0 : Fin 3) * 1 + 1 * (j 0).val
    omega
  · show (j 2).val = win0_2.index t (2 : Fin 3) * 2048 + 1 * (j 2).val
    omega

/-- An index of the array is in point `t`'s block iff each coordinate is in the block's range on its axis. -/
theorem mem_blk2 (t : Fin cfg0.N) (i : S16x1x2048.Idx) :
    i ∈ ((cfg0.win 2).blk t).view.set ↔ ∀ a : Fin 3, win0_2.index t a * S1x1x2048.size a ≤ (i a).val ∧ (i a).val < win0_2.index t a * S1x1x2048.size a + S1x1x2048.size a := by
  show i ∈ ((View.whole main_v0_0).slice (win0_2.rect t)).set ↔ _
  rw [View.set_slice_whole, Rect.mem_set_unit]
  exact Iff.rfl

/-- Every entry `(b, 0, q)` of the array lies in the block of point `b`. -/
theorem cover2 (i : S16x1x2048.Idx) :
    ∃ t : Fin cfg0.N, (cfg0.win 2).flush t = true ∧ i ∈ ((cfg0.win 2).blk t).view.set := by
  have hN : grid0.N = 16 := N_0
  have hi0 : (i 0).val < 16 := (i 0).isLt
  have hi1 : (i 1).val < 1 := (i 1).isLt
  have hi2 : (i 2).val < 2048 := (i 2).isLt
  have hlt : (i 0).val < grid0.N := by omega
  refine ⟨⟨(i 0).val, hlt⟩, flush0_2 _, ?_⟩
  rw [mem_blk2]
  obtain ⟨-, -, -, -, -, -, e20, e21, e22, e30, e31, e32⟩ := idx_facts ⟨(i 0).val, hlt⟩
  have htv : (⟨(i 0).val, hlt⟩ : Fin cfg0.N).val = (i 0).val := rfl
  intro a
  match a with
  | ⟨0, _⟩ =>
    show win0_2.index ⟨(i 0).val, hlt⟩ (0 : Fin 3) * 1 ≤ (i 0).val ∧ (i 0).val < win0_2.index ⟨(i 0).val, hlt⟩ (0 : Fin 3) * 1 + 1
    omega
  | ⟨1, _⟩ =>
    show win0_2.index ⟨(i 0).val, hlt⟩ (1 : Fin 3) * 1 ≤ (i 1).val ∧ (i 1).val < win0_2.index ⟨(i 0).val, hlt⟩ (1 : Fin 3) * 1 + 1
    omega
  | ⟨2, _⟩ =>
    show win0_2.index ⟨(i 0).val, hlt⟩ (2 : Fin 3) * 2048 ≤ (i 2).val ∧ (i 2).val < win0_2.index ⟨(i 0).val, hlt⟩ (2 : Fin 3) * 2048 + 2048
    omega

/-- The array after the run. -/
theorem final2 (c : Dev nD) :
    (dats m 0 c).arrAt 2 cfg0.N = firstArr (V m c main_arg0) (V m c main_arg1) :=
  (dats m 0 c).arrAt_eq_of_cover 2 _ (fun t _ => flushed2_eq m c t) cover2

/-- Output window 3: what point `t` writes back is block `t` of `secondArr` of the argument arrays. -/
theorem flushed3_eq (c : Dev nD) (t : Fin cfg0.N) :
    (dats m 0 c).flushed 3 t = ((cfg0.win 3).blk t).view.read (Elt Ideal) (secondArr (V m c main_arg0) (V m c main_arg1)) := by
  show (cfg0.win 3).cut (grid0.coords t) ((dats m 0 c).after 3 t) = _
  rw [after0_3]
  unfold out0_3
  rw [View.canon_unit_zero hz]
  simp only [View.ld_unit_zero (S := S1x3x2048) hz]
  have hN : grid0.N = 16 := N_0
  have ht : t.val < 16 := by have h : t.val < grid0.N := t.isLt; omega
  obtain ⟨-, -, -, -, -, -, e20, e21, e22, e30, e31, e32⟩ := idx_facts t
  funext j
  have hj0 : (j 0).val < 1 := (j 0).isLt
  show k0_pay3 (F := Ideal) (iblk m c 0 t) (iblk m c 1 t) j
    = secondArr (V m c main_arg0) (V m c main_arg1) (((cfg0.win 3).blk t).view.emb j)
  refine (second_at (iblk m c 0 t) (iblk m c 1 t) (V m c main_arg0) (V m c main_arg1) ⟨t.val, ht⟩
    (blk0 m c t ⟨t.val, ht⟩ rfl) (blk1 m c t ⟨t.val, ht⟩ rfl) j).trans ?_
  unfold secondArr
  refine congrArg₂ (nearSecond (V m c main_arg0) (V m c main_arg1)) (Fin.ext ?_) (Fin.ext ?_)
  · show t.val = win0_3.index t (0 : Fin 3) * 1 + 1 * (j 0).val
    omega
  · show (j 2).val = win0_3.index t (2 : Fin 3) * 2048 + 1 * (j 2).val
    omega

/-- An index of the array is in point `t`'s block iff each coordinate is in the block's range on its axis. -/
theorem mem_blk3 (t : Fin cfg0.N) (i : S16x1x2048.Idx) :
    i ∈ ((cfg0.win 3).blk t).view.set ↔ ∀ a : Fin 3, win0_3.index t a * S1x1x2048.size a ≤ (i a).val ∧ (i a).val < win0_3.index t a * S1x1x2048.size a + S1x1x2048.size a := by
  show i ∈ ((View.whole main_v0_1).slice (win0_3.rect t)).set ↔ _
  rw [View.set_slice_whole, Rect.mem_set_unit]
  exact Iff.rfl

/-- Every entry `(b, 0, q)` of the array lies in the block of point `b`. -/
theorem cover3 (i : S16x1x2048.Idx) :
    ∃ t : Fin cfg0.N, (cfg0.win 3).flush t = true ∧ i ∈ ((cfg0.win 3).blk t).view.set := by
  have hN : grid0.N = 16 := N_0
  have hi0 : (i 0).val < 16 := (i 0).isLt
  have hi1 : (i 1).val < 1 := (i 1).isLt
  have hi2 : (i 2).val < 2048 := (i 2).isLt
  have hlt : (i 0).val < grid0.N := by omega
  refine ⟨⟨(i 0).val, hlt⟩, flush0_3 _, ?_⟩
  rw [mem_blk3]
  obtain ⟨-, -, -, -, -, -, e20, e21, e22, e30, e31, e32⟩ := idx_facts ⟨(i 0).val, hlt⟩
  have htv : (⟨(i 0).val, hlt⟩ : Fin cfg0.N).val = (i 0).val := rfl
  intro a
  match a with
  | ⟨0, _⟩ =>
    show win0_3.index ⟨(i 0).val, hlt⟩ (0 : Fin 3) * 1 ≤ (i 0).val ∧ (i 0).val < win0_3.index ⟨(i 0).val, hlt⟩ (0 : Fin 3) * 1 + 1
    omega
  | ⟨1, _⟩ =>
    show win0_3.index ⟨(i 0).val, hlt⟩ (1 : Fin 3) * 1 ≤ (i 1).val ∧ (i 1).val < win0_3.index ⟨(i 0).val, hlt⟩ (1 : Fin 3) * 1 + 1
    omega
  | ⟨2, _⟩ =>
    show win0_3.index ⟨(i 0).val, hlt⟩ (2 : Fin 3) * 2048 ≤ (i 2).val ∧ (i 2).val < win0_3.index ⟨(i 0).val, hlt⟩ (2 : Fin 3) * 2048 + 2048
    omega

/-- The array after the run. -/
theorem final3 (c : Dev nD) :
    (dats m 0 c).arrAt 3 cfg0.N = secondArr (V m c main_arg0) (V m c main_arg1) :=
  (dats m 0 c).arrAt_eq_of_cover 3 _ (fun t _ => flushed3_eq m c t) cover3

end Cert.KernelIdeal.Arrays

end
-- ==== Proof.Loss.lean ====
/-
  The loss both programs end with: the two distance arrays, as [16, 2048] arrays, each summed over every entry from the
  zero word and divided by the word of 32768 = 16 · 2048, the two quotients added. Both programs apply exactly these
  host operations, in this order, to their distance arrays; it is stated once, never opened.
-/
import Idealize.ShloMosaic.PureOps.Ideal

noncomputable section

namespace Cert.Chamfer

open Idealize.ShloMosaic

/-- The mean of the first array's entries plus the mean of the second's. -/
def meanSum (hr : (⟨2, ![16, 2048]⟩ : Shape).ReducesTo [0, 1] ⟨0, ![]⟩) (h0 : 0 < (⟨0, ![]⟩ : Shape).numel)
    (z z2 : FVec Ideal ⟨2, ![16, 2048]⟩ .f32) : FVec Ideal ⟨0, ![]⟩ .f32 :=
  addf
    (Host.divf (Host.reduceAdd z (constant (F := Ideal) ⟨0, ![]⟩ .f32 0x00000000#32) hr h0)
      (constant (F := Ideal) ⟨0, ![]⟩ .f32 0x47000000#32))
    (Host.divf (Host.reduceAdd z2 (constant (F := Ideal) ⟨0, ![]⟩ .f32 0x00000000#32) hr h0)
      (constant (F := Ideal) ⟨0, ![]⟩ .f32 0x47000000#32))

end Cert.Chamfer

end
-- ==== Proof.KernelRun.lean ====
/-
  The kernel program's run, read: every weakly fair execution ends with the result at the loss of the two distance
  arrays of the argument arrays, the arguments unchanged.

  The region leaves its two output arrays at `firstArr` and `secondArr` of the arguments; the host lines after it
  reshape each [16, 1, 2048] array to [16, 2048], sum, divide and add: `meanSum`.
-/
import proofs.«103376_j26259430047858_2_alg».proof.Proof.Arrays
import proofs.«103376_j26259430047858_2_alg».proof.Proof.Loss
import Idealize.ShloMosaic.Lib.StableHlo.Run
import Idealize.ShloMosaic.Lib.Pipeline.FrameSuffix

noncomputable section

namespace Cert.KernelIdeal.Run

open Idealize.ShloMosaic Idealize.ShloMosaic.TcCoe Idealize.ShloMosaic.ValueIdx Idealize.SL.Sem Idealize.ShloMosaic.StableHlo
open Cert.KernelIdeal Cert.KernelIdeal.Gen Cert.KernelIdeal.Arrays Cert.Chamfer

variable (m : (ℓ : Loc nD τ sig) → Buf (Elt Ideal) ℓ) (ρ : Dev nD → PrngReg)

/-- The kernel program's result as a function of two argument arrays. -/
def result (X Y : Clouds) : FVec Ideal S_ .f32 :=
  meanSum reducesTo_S16x2048_S_d0_1 h_S_
    (shapeCast S16x2048 (firstArr X Y) shapeCasts_S16x1x2048_S16x2048)
    (shapeCast S16x2048 (secondArr X Y) shapeCasts_S16x1x2048_S16x2048)

/-- The host lines after the region, run over the region's arrays, leave the result buffer at `result`. -/
theorem tail_eq (c : Dev nD) :
    Pipeline.afterTail₀ cfgs (dats m) 0 (V0 m) [hostOps1] c main_v7
      = result (m ((c : Thread nD τ).loc main_arg0)) (m ((c : Thread nD τ).loc main_arg1)) := by
  unfold Pipeline.afterTail₀
  show StableHlo.after hostOps1 _ (Proc.devRef .tc main_v7) = _
  after_results
  have h2 : Pipeline.withArrays (cfgs 0).spec c (V0 m c) (fun w => (dats m 0 c).arrAt w (cfgs 0).N) (Proc.devRef .tc main_v0_0)
      = firstArr (V m c main_arg0) (V m c main_arg1) :=
    (Pipeline.withArrays_arr spec0 launch0.win.arr_inj c _ _ 2).trans (final2 m c)
  have h3 : Pipeline.withArrays (cfgs 0).spec c (V0 m c) (fun w => (dats m 0 c).arrAt w (cfgs 0).N) (Proc.devRef .tc main_v0_1)
      = secondArr (V m c main_arg0) (V m c main_arg1) :=
    (Pipeline.withArrays_arr spec0 launch0.win.arr_inj c _ _ 3).trans (final3 m c)
  rw [h2, h3, V_main_arg0, V_main_arg1]
  rfl

/-- THE RUN, READ: the result buffer ends at `result` of the argument arrays, and the arguments as they were. -/
theorem run : θ_run defs (onTc (τ := τ) (main (F := Ideal))) ⟨m, fun _ => 0, ρ⟩ (fun r => ∀ c : Dev nD,
      r.2.mem ((c.tc : Thread nD τ).loc main_v7)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨((h c).2 main_v7 (Pipeline.mem_restRefs_of main_v7 rfl (by decide))).trans (tail_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c)))⟩)
    (run_main m ρ)

end Cert.KernelIdeal.Run

end
-- ==== Proof.RefDist.lean ====
/-
  The reference's two distance arrays, read at an index.

  The reference forms the whole [16, 2048, 2048] array of expanded squared distances, clamps it at zero and takes the
  root entry by entry, and only then takes the minimum over the first cloud's points (axis 1) and over the second's
  (axis 2). At entry `(b, n, m)` the rooted array is the clamped root of `sqDist` (`root_apply`); its minimum over an
  axis is a fold of `min` from `+∞`, and a monotone map goes through such a fold, so the two reduced arrays are
  `nearFirst` and `nearSecond` (`first_apply`, `second_apply`).
-/
import proofs.«103376_j26259430047858_2_alg».proof.Proof.Gen.ReferenceIdeal.Read
import proofs.«103376_j26259430047858_2_alg».proof.Proof.Spec

noncomputable section

open scoped BigOperators

namespace Cert.ReferenceIdeal.Dist

open Idealize.ShloMosaic Idealize.ShloMosaic.ValueIdx Cert.ReferenceIdeal Cert.ReferenceIdeal.Gen Cert.ReferenceIdeal.Read
open Cert.MinFold Cert.Chamfer

theorem e_sq0 (b : Fin 16) (n m : Fin 2048) (k : Fin 3) :
    idx_main_v1 (idx_main_v5 (idx_main_v7 (ix3 b n m))) k = ix3 b k n :=
  funext fun a => Fin.ext (by match a with | ⟨0, _⟩ => rfl | ⟨1, _⟩ => rfl | ⟨2, _⟩ => rfl)
theorem e_sq1 (b : Fin 16) (n m : Fin 2048) (k : Fin 3) :
    idx_main_v3 (idx_main_v6 (idx_main_v8 (ix3 b n m))) k = ix3 b k m :=
  funext fun a => Fin.ext (by match a with | ⟨0, _⟩ => rfl | ⟨1, _⟩ => rfl | ⟨2, _⟩ => rfl)
theorem e_l (b : Fin 16) (n m : Fin 2048) (k : Fin 3) : lidx_main_v4 (ix3 b n m) k = ix3 b k n :=
  funext fun a => Fin.ext (by match a with | ⟨0, _⟩ => rfl | ⟨1, _⟩ => rfl | ⟨2, _⟩ => rfl)
theorem e_r (b : Fin 16) (n m : Fin 2048) (k : Fin 3) : ridx_main_v4 (ix3 b n m) k = ix3 b k m :=
  funext fun a => Fin.ext (by match a with | ⟨0, _⟩ => rfl | ⟨1, _⟩ => rfl | ⟨2, _⟩ => rfl)

/-- The expanded squared distance at `(b, n, m)`: the sums of squares start from the zero word, which adds nothing. -/
theorem dist_apply (x0 x1 : (⟨S16x3x2048, .f32⟩ : BufTy).Contents (Elt Ideal)) (b : Fin 16) (n m : Fin 2048) :
    val_main_v12 (F := Ideal) x0 x1 (ix3 b n m) = sqDist x0 x1 b n m := by
  rw [val_main_v12_apply, val_main_v9_apply, val_main_v11_apply, val_main_v10_apply, val_main_cst_1_apply, val_main_v4_apply,
    val_main_v7_apply, val_main_v5_apply, val_main_v1_apply, val_main_v8_apply, val_main_v6_apply, val_main_v3_apply,
    val_main_cst_apply, val_main_cst_0_apply]
  unfold sqDist
  simp only [val_main_v0_apply, val_main_v2_apply, e_sq0, e_sq1, e_l, e_r, Ideal.ofBits_def, Ideal.ofBits_zero_f32, zero_add,
    Ideal.addf_def, Ideal.subf_def, Ideal.mulf_def]

/-- The rooted array at `(b, n, m)`. -/
theorem root_apply (x0 x1 : (⟨S16x3x2048, .f32⟩ : BufTy).Contents (Elt Ideal)) (b : Fin 16) (n m : Fin 2048) :
    val_main_v15 (F := Ideal) x0 x1 (ix3 b n m) = clampRoot zero (sqDist x0 x1 b n m) := by
  rw [val_main_v15_apply, val_main_v14_apply, val_main_v13_apply, val_main_cst_2_apply, dist_apply]
  rfl

/-- The minimum over the first cloud's points. -/
theorem first_apply (x0 x1 : (⟨S16x3x2048, .f32⟩ : BufTy).Contents (Elt Ideal)) (b : Fin 16) (m : Fin 2048) :
    val_main_v16 (F := Ideal) x0 x1 (ix2 b m) = nearFirst x0 x1 b m := by
  unfold val_main_v16
  refine (hostReduce_minimumf_single _ _ reducesTo_S16x2048x2048_S16x2048_d1 (by decide) h_S_ (ix2 b m)).trans ?_
  refine Eq.trans ?_ (nearFirst_eq x0 x1 b m)
  refine Finset.fold_congr fun n _ => ?_
  refine Eq.trans ?_ (root_apply x0 x1 b n m)
  exact congrArg (val_main_v15 (F := Ideal) x0 x1)
    (funext fun a => Fin.ext (by match a with | ⟨0, _⟩ => rfl | ⟨1, _⟩ => rfl | ⟨2, _⟩ => rfl))

/-- The minimum over the second cloud's points. -/
theorem second_apply (x0 x1 : (⟨S16x3x2048, .f32⟩ : BufTy).Contents (Elt Ideal)) (b : Fin 16) (n : Fin 2048) :
    val_main_v17 (F := Ideal) x0 x1 (ix2 b n) = nearSecond x0 x1 b n := by
  unfold val_main_v17
  refine (hostReduce_minimumf_single _ _ reducesTo_S16x2048x2048_S16x2048_d2 (by decide) h_S_ (ix2 b n)).trans ?_
  refine Eq.trans ?_ (nearSecond_eq x0 x1 b n)
  refine Finset.fold_congr fun m _ => ?_
  refine Eq.trans ?_ (root_apply x0 x1 b n m)
  exact congrArg (val_main_v15 (F := Ideal) x0 x1)
    (funext fun a => Fin.ext (by match a with | ⟨0, _⟩ => rfl | ⟨1, _⟩ => rfl | ⟨2, _⟩ => rfl))

end Cert.ReferenceIdeal.Dist

end
-- ==== Proof.Bridge.lean ====
/-
  The reference's result is the kernel program's function of the argument arrays.

  Reshaped to [16, 2048], the kernel's first output array is the reference's minimum over the first cloud's points, and
  its second the minimum over the second cloud's: entry `(b, q)` of each is `nearFirst` / `nearSecond` of the clouds —
  on the kernel's side by what each grid point stores, on the reference's by moving the clamped root through the
  minimum. Both programs then apply the same loss to these two arrays.
-/
import proofs.«103376_j26259430047858_2_alg».proof.Proof.Arrays
import proofs.«103376_j26259430047858_2_alg».proof.Proof.RefDist
import proofs.«103376_j26259430047858_2_alg».proof.Proof.Loss
import Idealize.ShloMosaic.Lib.Pipeline.Value

noncomputable section

namespace Cert.Bridge

open Idealize.ShloMosaic Idealize.ShloMosaic.ValueIdx Cert.Chamfer
open Cert.KernelIdeal.Arrays Cert.ReferenceIdeal.Read

/-- The kernel's first output array, reshaped, is the reference's minimum over axis 1. -/
theorem first_eq (x0 x1 : Clouds) (hc : Cert.KernelIdeal.S16x1x2048.ShapeCasts Cert.KernelIdeal.S16x2048) :
    shapeCast Cert.KernelIdeal.S16x2048 (firstArr x0 x1) hc = val_main_v16 (F := Ideal) x0 x1 := by
  funext j
  obtain ⟨b, q, rfl⟩ : ∃ (b : Fin 16) (q : Fin 2048), j = ix2 b q := ⟨j 0, j 1, eq_ix2 j⟩
  rw [Cert.ReferenceIdeal.Dist.first_apply]
  refine (shapeCast_apply (firstArr x0 x1) hc (ix2 b q) (ix3 b (0 : Fin 1) q) ?_).trans rfl
  rw [Shape.rowMajor_val_three, Shape.rowMajor_val_two]
  show (b.val * 1 + 0) * 2048 + q.val = b.val * 2048 + q.val
  omega

/-- The kernel's second output array, reshaped, is the reference's minimum over axis 2. -/
theorem second_eq (x0 x1 : Clouds) (hc : Cert.KernelIdeal.S16x1x2048.ShapeCasts Cert.KernelIdeal.S16x2048) :
    shapeCast Cert.KernelIdeal.S16x2048 (secondArr x0 x1) hc = val_main_v17 (F := Ideal) x0 x1 := by
  funext j
  obtain ⟨b, q, rfl⟩ : ∃ (b : Fin 16) (q : Fin 2048), j = ix2 b q := ⟨j 0, j 1, eq_ix2 j⟩
  rw [Cert.ReferenceIdeal.Dist.second_apply]
  refine (shapeCast_apply (secondArr x0 x1) hc (ix2 b q) (ix3 b (0 : Fin 1) q) ?_).trans rfl
  rw [Shape.rowMajor_val_three, Shape.rowMajor_val_two]
  show (b.val * 1 + 0) * 2048 + q.val = b.val * 2048 + q.val
  omega

/-- The reference's result: the loss of those two arrays. -/
theorem ref_result (x0 x1 : Clouds) (hr : (⟨2, ![16, 2048]⟩ : Shape).ReducesTo [0, 1] ⟨0, ![]⟩) (h0 : 0 < (⟨0, ![]⟩ : Shape).numel)
    (hc : Cert.KernelIdeal.S16x1x2048.ShapeCasts Cert.KernelIdeal.S16x2048) :
    val_main_v22 (F := Ideal) x0 x1
      = meanSum hr h0 (shapeCast Cert.KernelIdeal.S16x2048 (firstArr x0 x1) hc) (shapeCast Cert.KernelIdeal.S16x2048 (secondArr x0 x1) hc) := by
  rw [first_eq, second_eq]
  rfl

end Cert.Bridge

end
-- ==== Proof.lean ====
/-
  The chamfer loss of sixteen pairs of point clouds, kernel against reference, on the extended reals.

  For clouds `x`, `y` of 2048 points in three coordinates, both programs form the expanded squared distances
  `d²(n, m) = (|xₙ|² + |yₘ|²) − 2 xₙ·yₘ`, and the loss is the mean over `m` of `minₙ d(n, m)` plus the mean over `n`
  of `minₘ d(n, m)`, where `d = √(max(d², 0))`. The reference takes the clamped root of all 2048² entries and then the
  minima; the kernel takes the minima of `d²` first and the clamped root of the 2 · 2048 minima only. The map
  `v ↦ √(max(v, 0))` is monotone on the extended reals (top to top), and a monotone map goes through the minimum of a
  finite family, so the two orders give one number: no finiteness of the inputs is used, only the order.

  The modules: `LibMinFold` (monotone maps through a fold of `min`; a minimum reduction over one axis as that fold),
  `Spec` (the squared distance and the two distance vectors as functions of the clouds), `Body` (the kernel body's
  arithmetic read at an index), `Arrays` (the sixteen blocks the grid writes back are the two output arrays),
  `KernelRun` (the host lines after the region: reshape, sum, divide, add), `RefDist` (the reference's two minima read
  at an index), `Loss` (the shared last lines), `Bridge` (the reference's result is the kernel's function).
  The three frames are the generated ones (the reference's from its generated run); the idealization rewrote nothing.
-/
import proofs.«103376_j26259430047858_2_alg».proof.Defs
import proofs.«103376_j26259430047858_2_alg».proof.Proof.Gen.Kernel
import proofs.«103376_j26259430047858_2_alg».proof.Proof.Gen.Kernel.Frame
import proofs.«103376_j26259430047858_2_alg».proof.Proof.Gen.KernelIdeal
import proofs.«103376_j26259430047858_2_alg».proof.Proof.Gen.KernelIdeal.Frame
import proofs.«103376_j26259430047858_2_alg».proof.Proof.Gen.ReferenceIdeal
import proofs.«103376_j26259430047858_2_alg».proof.Proof.Gen.ReferenceIdeal.Run
import proofs.«103376_j26259430047858_2_alg».proof.Proof.Gen.ReferenceIdeal.Read
import proofs.«103376_j26259430047858_2_alg».proof.Proof.Gen.Pre_finite_inputs
import proofs.«103376_j26259430047858_2_alg».proof.Proof.KernelRun
import proofs.«103376_j26259430047858_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at one function of the argument arrays: the loss of the two distance arrays. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, (hagree c).1, (hagree c).2]
  exact Cert.Bridge.ref_result _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
